-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v157) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2000000x14 : Shape := ⟨2, ![2000000, 14]⟩
abbrev S_ : Shape := ⟨0, ![]⟩

class Facts : Prop where
  bcast_S_S2000000x14 : S_.BroadcastsInDim S2000000x14 (![] : Fin 0 → Fin S2000000x14.rank)
  reducesTo_S2000000x14_S_d0_1 : S2000000x14.ReducesTo [0, 1] S_
  h_S_ : 0 < S_.numel

variable [Facts]

def fn {F : FTy → Type} [FloatOps F] (main_arg0 : FVec F S2000000x14 .f32) : IVec S_ 1 :=
  let main_v0 : FVec F S2000000x14 .f32 := Host.absf main_arg0
  let main_cst : FVec F S_ .f32 := constant S_ .f32 0x7F800000#32
  let main_v1 : FVec F S2000000x14 .f32 := broadcastInDim S2000000x14 ![] bcast_S_S2000000x14 main_cst
  let main_v2 : IVec S2000000x14 1 := cmpf .olt main_v0 main_v1
  let main_c : IVec S_ 1 := constantI S_ 1 1#1
  let main_v3 : IVec S_ 1 := (fun x v => Host.reduce IntOp.andi x v reducesTo_S2000000x14_S_d0_1 h_S_) main_v2 main_c
  main_v3
-- ==== Kernel.lean ====
abbrev S2000000x14 : Shape := ⟨2, ![2000000, 14]⟩
abbrev S2000000x3 : Shape := ⟨2, ![2000000, 3]⟩
abbrev S125000x14 : Shape := ⟨2, ![125000, 14]⟩
abbrev S125000x3 : Shape := ⟨2, ![125000, 3]⟩
abbrev S14x125000 : Shape := ⟨2, ![14, 125000]⟩
abbrev S1x125000 : Shape := ⟨2, ![1, 125000]⟩
abbrev S3x125000 : Shape := ⟨2, ![3, 125000]⟩

abbrev nBuf : Space → Nat
  | .hbm => 2
  | .vmem => 4
  | .smem => 0
  | _ => 0

abbrev bufTy : (tb : Table) → Fin (tcTables nBuf tb) → BufTy
  | .hbm, ⟨0, _⟩ => ⟨S2000000x14, .f32⟩
  | .hbm, ⟨1, _⟩ => ⟨S2000000x3, .f32⟩
  | .local _ .vmem, ⟨0, _⟩ => ⟨S125000x14, .f32⟩
  | .local _ .vmem, ⟨1, _⟩ => ⟨S125000x14, .f32⟩
  | .local _ .vmem, ⟨2, _⟩ => ⟨S125000x3, .f32⟩
  | .local _ .vmem, ⟨3, _⟩ => ⟨S125000x3, .f32⟩
  | _, _ => ⟨S2000000x14, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S125000x14 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S125000x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S125000x14_S125000x14_0_0 : ∀ a, (![0, 0] : Fin 2 → Nat) a + S125000x14.size a ≤ S125000x14.size a
  h_S125000x14 : 0 < S125000x14.numel
  transposes_S125000x14_p1_0_S14x125000 : S125000x14.Transposes [1, 0] S14x125000
  slices_S14x125000_o0_0_S1x125000 : S14x125000.Slices ![0, 0] S1x125000
  slices_S14x125000_o1_0_S1x125000 : S14x125000.Slices ![1, 0] S1x125000
  slices_S14x125000_o5_0_S1x125000 : S14x125000.Slices ![5, 0] S1x125000
  slices_S14x125000_o6_0_S1x125000 : S14x125000.Slices ![6, 0] S1x125000
  slices_S14x125000_o8_0_S1x125000 : S14x125000.Slices ![8, 0] S1x125000
  slices_S14x125000_o9_0_S1x125000 : S14x125000.Slices ![9, 0] S1x125000
  slices_S14x125000_o10_0_S1x125000 : S14x125000.Slices ![10, 0] S1x125000
  slices_S14x125000_o11_0_S1x125000 : S14x125000.Slices ![11, 0] S1x125000
  slices_S14x125000_o12_0_S1x125000 : S14x125000.Slices ![12, 0] S1x125000
  slices_S14x125000_o13_0_S1x125000 : S14x125000.Slices ![13, 0] S1x125000
  natLt_1_32 : 1 < 32
  concatenates_S1x125000_S1x125000_S1x125000_S3x125000_d0 : Shape.Concatenates [S1x125000, S1x125000, S1x125000] S3x125000 0
  transposes_S3x125000_p1_0_S125000x3 : S3x125000.Transposes [1, 0] S125000x3
  inb_S125000x3_S125000x3_0_0 : ∀ a, (![0, 0] : Fin 2 → Nat) a + S125000x3.size a ≤ S125000x3.size a
  h_S125000x3 : 0 < S125000x3.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S125000x14.size a ≤ S2000000x14.size a
  hwx0_0 : ∀ i : grid0.Coords, EltTy.bits .f32 = 32 ∨ (Rect.block (s := S2000000x14) S125000x14.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S125000x3.size a ≤ S2000000x3.size a
  hwx0_1 : ∀ i : grid0.Coords, EltTy.bits .f32 = 32 ∨ (Rect.block (s := S2000000x3) S125000x3.size (cc0_transform_1 i) (hinb0_1 i)).WholeWords (EltTy.packing .f32)

variable [Facts₀]

abbrev win0_0 : Pipeline.Window sig grid0 :=
  Pipeline.Window.ofSpec (Memref.whole main_arg0) S125000x14.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S125000x3.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S2000000x14 : Shape := ⟨2, ![2000000, 14]⟩
abbrev S2000000x1 : Shape := ⟨2, ![2000000, 1]⟩
abbrev S2000000 : Shape := ⟨1, ![2000000]⟩
abbrev S_ : Shape := ⟨0, ![]⟩
abbrev S2000000x3 : Shape := ⟨2, ![2000000, 3]⟩

abbrev nBuf : Space → Nat
  | .hbm => 195
  | .vmem => 0
  | .smem => 0
  | _ => 0

abbrev hbmTy0_0 (i : Nat) : BufTy := match i % 128 with
  | 0 => ⟨S2000000x14, .f32⟩
  | 1 => ⟨S2000000x1, .f32⟩
  | 2 => ⟨S2000000, .f32⟩
  | 3 => ⟨S2000000x1, .f32⟩
  | 4 => ⟨S2000000, .f32⟩
  | 5 => ⟨S2000000x1, .f32⟩
  | 6 => ⟨S2000000, .f32⟩
  | 7 => ⟨S2000000x1, .f32⟩
  | 8 => ⟨S2000000, .f32⟩
  | 9 => ⟨S2000000x1, .f32⟩
  | 10 => ⟨S2000000, .f32⟩
  | 11 => ⟨S2000000x1, .f32⟩
  | 12 => ⟨S2000000, .f32⟩
  | 13 => ⟨S2000000x1, .f32⟩
  | 14 => ⟨S2000000, .f32⟩
  | 15 => ⟨S2000000x1, .f32⟩
  | 16 => ⟨S2000000, .f32⟩
  | 17 => ⟨S2000000x1, .f32⟩
  | 18 => ⟨S2000000, .f32⟩
  | 19 => ⟨S2000000x1, .f32⟩
  | 20 => ⟨S2000000, .f32⟩
  | 21 => ⟨S2000000, .i1⟩
  | 22 => ⟨S2000000, .i1⟩
  | 23 => ⟨S2000000, .f32⟩
  | 24 => ⟨S2000000, .f32⟩
  | 25 => ⟨S_, .f32⟩
  | 26 => ⟨S2000000, .f32⟩
  | 27 => ⟨S2000000, .i1⟩
  | 28 => ⟨S_, .f32⟩
  | 29 => ⟨S2000000, .f32⟩
  | 30 => ⟨S2000000, .i1⟩
  | 31 => ⟨S_, .f32⟩
  | 32 => ⟨S2000000, .f32⟩
  | 33 => ⟨S2000000, .i1⟩
  | 34 => ⟨S2000000, .i1⟩
  | 35 => ⟨S2000000, .i1⟩
  | 36 => ⟨S_, .f32⟩
  | 37 => ⟨S2000000, .f32⟩
  | 38 => ⟨S2000000, .i1⟩
  | 39 => ⟨S2000000, .i1⟩
  | 40 => ⟨S2000000, .i1⟩
  | 41 => ⟨S2000000, .f32⟩
  | 42 => ⟨S_, .f32⟩
  | 43 => ⟨S2000000, .f32⟩
  | 44 => ⟨S2000000, .f32⟩
  | 45 => ⟨S2000000, .f32⟩
  | 46 => ⟨S_, .f32⟩
  | 47 => ⟨S2000000, .f32⟩
  | 48 => ⟨S2000000, .f32⟩
  | 49 => ⟨S2000000, .f32⟩
  | 50 => ⟨S2000000, .f32⟩
  | 51 => ⟨S2000000, .f32⟩
  | 52 => ⟨S2000000, .f32⟩
  | 53 => ⟨S2000000, .f32⟩
  | 54 => ⟨S_, .f32⟩
  | 55 => ⟨S2000000, .f32⟩
  | 56 => ⟨S2000000, .i1⟩
  | 57 => ⟨S_, .f32⟩
  | 58 => ⟨S2000000, .f32⟩
  | 59 => ⟨S2000000, .i1⟩
  | 60 => ⟨S2000000, .i1⟩
  | 61 => ⟨S_, .f32⟩
  | 62 => ⟨S2000000, .f32⟩
  | 63 => ⟨S2000000, .i1⟩
  | 64 => ⟨S2000000, .f32⟩
  | 65 => ⟨S_, .f32⟩
  | 66 => ⟨S2000000, .f32⟩
  | 67 => ⟨S2000000, .f32⟩
  | 68 => ⟨S2000000, .f32⟩
  | 69 => ⟨S_, .f32⟩
  | 70 => ⟨S2000000, .f32⟩
  | 71 => ⟨S2000000, .f32⟩
  | 72 => ⟨S2000000, .f32⟩
  | 73 => ⟨S_, .f32⟩
  | 74 => ⟨S2000000, .f32⟩
  | 75 => ⟨S2000000, .i1⟩
  | 76 => ⟨S2000000, .f32⟩
  | 77 => ⟨S_, .f32⟩
  | 78 => ⟨S2000000, .f32⟩
  | 79 => ⟨S2000000, .f32⟩
  | 80 => ⟨S2000000, .f32⟩
  | 81 => ⟨S_, .f32⟩
  | 82 => ⟨S2000000, .f32⟩
  | 83 => ⟨S2000000, .f32⟩
  | 84 => ⟨S2000000, .f32⟩
  | 85 => ⟨S_, .f32⟩
  | 86 => ⟨S2000000, .f32⟩
  | 87 => ⟨S2000000, .i1⟩
  | 88 => ⟨S2000000, .f32⟩
  | 89 => ⟨S_, .f32⟩
  | 90 => ⟨S2000000, .f32⟩
  | 91 => ⟨S2000000, .f32⟩
  | 92 => ⟨S_, .f32⟩
  | 93 => ⟨S2000000, .f32⟩
  | 94 => ⟨S2000000, .i1⟩
  | 95 => ⟨S2000000, .f32⟩
  | 96 => ⟨S_, .f32⟩
  | 97 => ⟨S2000000, .f32⟩
  | 98 => ⟨S2000000, .f32⟩
  | 99 => ⟨S_, .f32⟩
  | 100 => ⟨S2000000, .f32⟩
  | 101 => ⟨S2000000, .i1⟩
  | 102 => ⟨S2000000, .f32⟩
  | 103 => ⟨S_, .f32⟩
  | 104 => ⟨S2000000, .f32⟩
  | 105 => ⟨S2000000, .f32⟩
  | 106 => ⟨S_, .f32⟩
  | 107 => ⟨S2000000, .f32⟩
  | 108 => ⟨S2000000, .i1⟩
  | 109 => ⟨S2000000, .f32⟩
  | 110 => ⟨S_, .f32⟩
  | 111 => ⟨S2000000, .f32⟩
  | 112 => ⟨S2000000, .f32⟩
  | 113 => ⟨S_, .f32⟩
  | 114 => ⟨S2000000, .f32⟩
  | 115 => ⟨S2000000, .i1⟩
  | 116 => ⟨S_, .f32⟩
  | 117 => ⟨S2000000, .f32⟩
  | 118 => ⟨S2000000, .i1⟩
  | 119 => ⟨S_, .f32⟩
  | 120 => ⟨S2000000, .f32⟩
  | 121 => ⟨S2000000, .i1⟩
  | 122 => ⟨S_, .f32⟩
  | 123 => ⟨S2000000, .f32⟩
  | 124 => ⟨S2000000, .i1⟩
  | 125 => ⟨S_, .f32⟩
  | 126 => ⟨S2000000, .f32⟩
  | 127 => ⟨S2000000, .i1⟩
  | _ => ⟨S2000000x14, .f32⟩

abbrev hbmTy0_1 (i : Nat) : BufTy := match i % 128 with
  | 0 => ⟨S_, .f32⟩
  | 1 => ⟨S2000000, .f32⟩
  | 2 => ⟨S2000000, .i1⟩
  | 3 => ⟨S2000000, .i1⟩
  | 4 => ⟨S2000000, .i1⟩
  | 5 => ⟨S2000000, .i1⟩
  | 6 => ⟨S2000000, .i1⟩
  | 7 => ⟨S2000000, .i1⟩
  | 8 => ⟨S2000000, .i1⟩
  | 9 => ⟨S2000000, .i1⟩
  | 10 => ⟨S2000000, .i1⟩
  | 11 => ⟨S2000000, .i1⟩
  | 12 => ⟨S2000000, .i1⟩
  | 13 => ⟨S2000000, .i1⟩
  | 14 => ⟨S2000000, .i1⟩
  | 15 => ⟨S2000000, .i1⟩
  | 16 => ⟨S2000000, .i1⟩
  | 17 => ⟨S2000000, .i1⟩
  | 18 => ⟨S2000000, .i1⟩
  | 19 => ⟨S2000000, .i1⟩
  | 20 => ⟨S2000000, .i1⟩
  | 21 => ⟨S2000000, .i1⟩
  | 22 => ⟨S2000000, .i1⟩
  | 23 => ⟨S2000000, .i1⟩
  | 24 => ⟨S2000000, .i1⟩
  | 25 => ⟨S2000000, .f32⟩
  | 26 => ⟨S_, .f32⟩
  | 27 => ⟨S2000000, .f32⟩
  | 28 => ⟨S2000000, .f32⟩
  | 29 => ⟨S2000000, .f32⟩
  | 30 => ⟨S_, .f32⟩
  | 31 => ⟨S2000000, .f32⟩
  | 32 => ⟨S2000000, .f32⟩
  | 33 => ⟨S2000000, .f32⟩
  | 34 => ⟨S2000000, .f32⟩
  | 35 => ⟨S2000000, .f32⟩
  | 36 => ⟨S_, .f32⟩
  | 37 => ⟨S2000000, .f32⟩
  | 38 => ⟨S2000000, .f32⟩
  | 39 => ⟨S2000000, .f32⟩
  | 40 => ⟨S2000000, .f32⟩
  | 41 => ⟨S2000000, .f32⟩
  | 42 => ⟨S2000000, .f32⟩
  | 43 => ⟨S_, .f32⟩
  | 44 => ⟨S2000000, .f32⟩
  | 45 => ⟨S2000000, .f32⟩
  | 46 => ⟨S2000000, .f32⟩
  | 47 => ⟨S_, .f32⟩
  | 48 => ⟨S2000000, .f32⟩
  | 49 => ⟨S2000000x1, .f32⟩
  | 50 => ⟨S2000000x1, .f32⟩
  | 51 => ⟨S2000000x1, .f32⟩
  | 52 => ⟨S2000000x3, .f32⟩
  | 53 => ⟨S_, .f32⟩
  | 54 => ⟨S2000000, .f32⟩
  | 55 => ⟨S_, .f32⟩
  | 56 => ⟨S2000000, .f32⟩
  | 57 => ⟨S2000000, .f32⟩
  | 58 => ⟨S2000000x1, .f32⟩
  | 59 => ⟨S2000000x3, .f32⟩
  | 60 => ⟨S2000000x3, .f32⟩
  | 61 => ⟨S2000000x3, .f32⟩
  | 62 => ⟨S_, .f32⟩
  | 63 => ⟨S2000000, .f32⟩
  | 64 => ⟨S2000000x1, .f32⟩
  | 65 => ⟨S2000000x3, .f32⟩
  | 66 => ⟨S2000000x3, .f32⟩
  | _ => ⟨S2000000x14, .f32⟩

abbrev hbmTy (i : Nat) : BufTy := match i / 128 with
  | 0 => hbmTy0_0 i
  | 1 => hbmTy0_1 i
  | _ => ⟨S2000000x14, .f32⟩

abbrev bufTy : (tb : Table) → Fin (tcTables nBuf tb) → BufTy
  | .hbm, ⟨i, _⟩ => hbmTy i
  | _, _ => ⟨S2000000x14, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_v12 : Ref sig .tc := ⟨.hbm, 13, rfl⟩
abbrev main_v13 : Ref sig .tc := ⟨.hbm, 14, rfl⟩
abbrev main_v14 : Ref sig .tc := ⟨.hbm, 15, rfl⟩
abbrev main_v15 : Ref sig .tc := ⟨.hbm, 16, rfl⟩
abbrev main_v16 : Ref sig .tc := ⟨.hbm, 17, rfl⟩
abbrev main_v17 : Ref sig .tc := ⟨.hbm, 18, rfl⟩
abbrev main_v18 : Ref sig .tc := ⟨.hbm, 19, rfl⟩
abbrev main_v19 : Ref sig .tc := ⟨.hbm, 20, rfl⟩
abbrev main_v20 : Ref sig .tc := ⟨.hbm, 21, rfl⟩
abbrev main_v21 : Ref sig .tc := ⟨.hbm, 22, rfl⟩
abbrev main_v22 : Ref sig .tc := ⟨.hbm, 23, rfl⟩
abbrev main_v23 : Ref sig .tc := ⟨.hbm, 24, rfl⟩
abbrev main_cst : Ref sig .tc := ⟨.hbm, 25, rfl⟩
abbrev main_v24 : Ref sig .tc := ⟨.hbm, 26, rfl⟩
abbrev main_v25 : Ref sig .tc := ⟨.hbm, 27, rfl⟩
abbrev main_cst_0 : Ref sig .tc := ⟨.hbm, 28, rfl⟩
abbrev main_v26 : Ref sig .tc := ⟨.hbm, 29, rfl⟩
abbrev main_v27 : Ref sig .tc := ⟨.hbm, 30, rfl⟩
abbrev main_cst_1 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_cst_2 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_cst_3 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_cst_4 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_cst_5 : Ref sig .tc := ⟨.hbm, 54, rfl⟩
abbrev main_v47 : Ref sig .tc := ⟨.hbm, 55, rfl⟩
abbrev main_v48 : Ref sig .tc := ⟨.hbm, 56, rfl⟩
abbrev main_cst_6 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_cst_7 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_cst_8 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_cst_9 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_cst_10 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_cst_11 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_cst_12 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_cst_13 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_cst_14 : Ref sig .tc := ⟨.hbm, 89, rfl⟩
abbrev main_v73 : Ref sig .tc := ⟨.hbm, 90, rfl⟩
abbrev main_v74 : Ref sig .tc := ⟨.hbm, 91, rfl⟩
abbrev main_cst_15 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_cst_16 : Ref sig .tc := ⟨.hbm, 96, rfl⟩
abbrev main_v78 : Ref sig .tc := ⟨.hbm, 97, rfl⟩
abbrev main_v79 : Ref sig .tc := ⟨.hbm, 98, rfl⟩
abbrev main_cst_17 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_cst_18 : Ref sig .tc := ⟨.hbm, 103, rfl⟩
abbrev main_v83 : Ref sig .tc := ⟨.hbm, 104, rfl⟩
abbrev main_v84 : Ref sig .tc := ⟨.hbm, 105, rfl⟩
abbrev main_cst_19 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_cst_20 : Ref sig .tc := ⟨.hbm, 110, rfl⟩
abbrev main_v88 : Ref sig .tc := ⟨.hbm, 111, rfl⟩
abbrev main_v89 : Ref sig .tc := ⟨.hbm, 112, rfl⟩
abbrev main_cst_21 : Ref sig .tc := ⟨.hbm, 113, rfl⟩
abbrev main_v90 : Ref sig .tc := ⟨.hbm, 114, rfl⟩
abbrev main_v91 : Ref sig .tc := ⟨.hbm, 115, rfl⟩
abbrev main_cst_22 : Ref sig .tc := ⟨.hbm, 116, rfl⟩
abbrev main_v92 : Ref sig .tc := ⟨.hbm, 117, rfl⟩
abbrev main_v93 : Ref sig .tc := ⟨.hbm, 118, rfl⟩
abbrev main_cst_23 : Ref sig .tc := ⟨.hbm, 119, rfl⟩
abbrev main_v94 : Ref sig .tc := ⟨.hbm, 120, rfl⟩
abbrev main_v95 : Ref sig .tc := ⟨.hbm, 121, rfl⟩
abbrev main_cst_24 : Ref sig .tc := ⟨.hbm, 122, rfl⟩
abbrev main_v96 : Ref sig .tc := ⟨.hbm, 123, rfl⟩
abbrev main_v97 : Ref sig .tc := ⟨.hbm, 124, rfl⟩
abbrev main_cst_25 : Ref sig .tc := ⟨.hbm, 125, rfl⟩
abbrev main_v98 : Ref sig .tc := ⟨.hbm, 126, rfl⟩
abbrev main_v99 : Ref sig .tc := ⟨.hbm, 127, rfl⟩
abbrev main_cst_26 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_v105 : Ref sig .tc := ⟨.hbm, 134, rfl⟩
abbrev main_v106 : Ref sig .tc := ⟨.hbm, 135, rfl⟩
abbrev main_v107 : Ref sig .tc := ⟨.hbm, 136, rfl⟩
abbrev main_v108 : Ref sig .tc := ⟨.hbm, 137, rfl⟩
abbrev main_v109 : Ref sig .tc := ⟨.hbm, 138, rfl⟩
abbrev main_v110 : Ref sig .tc := ⟨.hbm, 139, rfl⟩
abbrev main_v111 : Ref sig .tc := ⟨.hbm, 140, rfl⟩
abbrev main_v112 : Ref sig .tc := ⟨.hbm, 141, rfl⟩
abbrev main_v113 : Ref sig .tc := ⟨.hbm, 142, rfl⟩
abbrev main_v114 : Ref sig .tc := ⟨.hbm, 143, rfl⟩
abbrev main_v115 : Ref sig .tc := ⟨.hbm, 144, rfl⟩
abbrev main_v116 : Ref sig .tc := ⟨.hbm, 145, rfl⟩
abbrev main_v117 : Ref sig .tc := ⟨.hbm, 146, rfl⟩
abbrev main_v118 : Ref sig .tc := ⟨.hbm, 147, rfl⟩
abbrev main_v119 : Ref sig .tc := ⟨.hbm, 148, rfl⟩
abbrev main_v120 : Ref sig .tc := ⟨.hbm, 149, rfl⟩
abbrev main_v121 : Ref sig .tc := ⟨.hbm, 150, rfl⟩
abbrev main_v122 : Ref sig .tc := ⟨.hbm, 151, rfl⟩
abbrev main_v123 : Ref sig .tc := ⟨.hbm, 152, rfl⟩
abbrev main_v124 : Ref sig .tc := ⟨.hbm, 153, rfl⟩
abbrev main_cst_27 : Ref sig .tc := ⟨.hbm, 154, rfl⟩
abbrev main_v125 : Ref sig .tc := ⟨.hbm, 155, rfl⟩
abbrev main_v126 : Ref sig .tc := ⟨.hbm, 156, rfl⟩
abbrev main_v127 : Ref sig .tc := ⟨.hbm, 157, rfl⟩
abbrev main_cst_28 : Ref sig .tc := ⟨.hbm, 158, rfl⟩
abbrev main_v128 : Ref sig .tc := ⟨.hbm, 159, rfl⟩
abbrev main_v129 : Ref sig .tc := ⟨.hbm, 160, rfl⟩
abbrev main_v130 : Ref sig .tc := ⟨.hbm, 161, rfl⟩
abbrev main_v131 : Ref sig .tc := ⟨.hbm, 162, rfl⟩
abbrev main_v132 : Ref sig .tc := ⟨.hbm, 163, rfl⟩
abbrev main_cst_29 : Ref sig .tc := ⟨.hbm, 164, rfl⟩
abbrev main_v133 : Ref sig .tc := ⟨.hbm, 165, rfl⟩
abbrev main_v134 : Ref sig .tc := ⟨.hbm, 166, rfl⟩
abbrev main_v135 : Ref sig .tc := ⟨.hbm, 167, rfl⟩
abbrev main_v136 : Ref sig .tc := ⟨.hbm, 168, rfl⟩
abbrev main_v137 : Ref sig .tc := ⟨.hbm, 169, rfl⟩
abbrev main_v138 : Ref sig .tc := ⟨.hbm, 170, rfl⟩
abbrev main_cst_30 : Ref sig .tc := ⟨.hbm, 171, rfl⟩
abbrev main_v139 : Ref sig .tc := ⟨.hbm, 172, rfl⟩
abbrev main_v140 : Ref sig .tc := ⟨.hbm, 173, rfl⟩
abbrev main_v141 : Ref sig .tc := ⟨.hbm, 174, rfl⟩
abbrev main_cst_31 : Ref sig .tc := ⟨.hbm, 175, rfl⟩
abbrev main_v142 : Ref sig .tc := ⟨.hbm, 176, rfl⟩
abbrev main_v143 : Ref sig .tc := ⟨.hbm, 177, rfl⟩
abbrev main_v144 : Ref sig .tc := ⟨.hbm, 178, rfl⟩
abbrev main_v145 : Ref sig .tc := ⟨.hbm, 179, rfl⟩
abbrev main_v146 : Ref sig .tc := ⟨.hbm, 180, rfl⟩
abbrev main_cst_32 : Ref sig .tc := ⟨.hbm, 181, rfl⟩
abbrev main_v147 : Ref sig .tc := ⟨.hbm, 182, rfl⟩
abbrev main_cst_33 : Ref sig .tc := ⟨.hbm, 183, rfl⟩
abbrev main_v148 : Ref sig .tc := ⟨.hbm, 184, rfl⟩
abbrev main_v149 : Ref sig .tc := ⟨.hbm, 185, rfl⟩
abbrev main_v150 : Ref sig .tc := ⟨.hbm, 186, rfl⟩
abbrev main_v151 : Ref sig .tc := ⟨.hbm, 187, rfl⟩
abbrev main_v152 : Ref sig .tc := ⟨.hbm, 188, rfl⟩
abbrev main_v153 : Ref sig .tc := ⟨.hbm, 189, rfl⟩
abbrev main_cst_34 : Ref sig .tc := ⟨.hbm, 190, rfl⟩
abbrev main_v154 : Ref sig .tc := ⟨.hbm, 191, rfl⟩
abbrev main_v155 : Ref sig .tc := ⟨.hbm, 192, rfl⟩
abbrev main_v156 : Ref sig .tc := ⟨.hbm, 193, rfl⟩
abbrev main_v157 : Ref sig .tc := ⟨.hbm, 194, rfl⟩

abbrev nD : Nat := 1
abbrev τ : Topo := Topo.v7x

variable {F : FTy → Type} [FloatOps F]

class Facts₀ : Prop where
  slices_S2000000x14_S2000000x1_0_0 : S2000000x14.Slices ![0, 0] S2000000x1
  shapeCasts_S2000000x1_S2000000 : S2000000x1.ShapeCasts S2000000
  slices_S2000000x14_S2000000x1_0_1 : S2000000x14.Slices ![0, 1] S2000000x1
  slices_S2000000x14_S2000000x1_0_5 : S2000000x14.Slices ![0, 5] S2000000x1
  slices_S2000000x14_S2000000x1_0_6 : S2000000x14.Slices ![0, 6] S2000000x1
  slices_S2000000x14_S2000000x1_0_8 : S2000000x14.Slices ![0, 8] S2000000x1
  slices_S2000000x14_S2000000x1_0_9 : S2000000x14.Slices ![0, 9] S2000000x1
  slices_S2000000x14_S2000000x1_0_10 : S2000000x14.Slices ![0, 10] S2000000x1
  slices_S2000000x14_S2000000x1_0_11 : S2000000x14.Slices ![0, 11] S2000000x1
  slices_S2000000x14_S2000000x1_0_12 : S2000000x14.Slices ![0, 12] S2000000x1
  slices_S2000000x14_S2000000x1_0_13 : S2000000x14.Slices ![0, 13] S2000000x1
  bcast_S_S2000000 : S_.BroadcastsInDim S2000000 (![] : Fin 0 → Fin S2000000.rank)
  bcast_S2000000_S2000000x1_0 : S2000000.BroadcastsInDim S2000000x1 (![0] : Fin 1 → Fin S2000000x1.rank)
  concatenates_S2000000x1_S2000000x1_S2000000x1_S2000000x3_d1 : Shape.Concatenates [S2000000x1, S2000000x1, S2000000x1] S2000000x3 1
  reducesTo_S2000000x3_S2000000_d1 : S2000000x3.ReducesTo [1] S2000000
  h_S_ : 0 < S_.numel
  bcast_S2000000x1_S2000000x3_0_1 : S2000000x1.BroadcastsInDim S2000000x3 (![0, 1] : Fin 2 → Fin S2000000x3.rank)

variable [Facts₀]

class Facts : Prop extends Facts₀ where

variable [Facts]
-- ==== Proof.LibBitReads.lean ====
/-
  Two small facts at the ideal values (extended reals), for any kernel that turns a comparison's one-bit word into a
  float and any reference that takes a maximum over an axis of three.

  A one-bit word widened to 32 bits without sign and then read as a signed integer (what a vector unit does for a
  boolean cast to float) is the word read as an unsigned integer (what the host's conversion of a boolean does): both
  are 0 or 1. And the fold of `max` from -∞ over three entries is the largest of the three.
-/
import Idealize.ShloMosaic.PureOps.Ideal.Laws
import Mathlib.Data.Finset.Fold

noncomputable section

namespace Cert.LibBitReads

open Idealize.ShloMosaic

/-- A one-bit word widened to 32 bits and read signed is the word read unsigned, as integers. -/
theorem toInt_setWidth_one (b : BitVec 1) : (b.setWidth 32).toInt = (b.toNat : ℤ) := by
  revert b; decide

/-- The same as extended reals. -/
theorem signedWide_eq_unsigned (b : BitVec 1) : (((b.setWidth 32).toInt : ℝ) : EReal) = ((b.toNat : ℝ) : EReal) := by
  rw [toInt_setWidth_one b]
  norm_cast

/-- The same as the two conversions of the ideal instance, at any float format: the signed conversion of the widened
    word is the unsigned conversion of the word. -/
theorem sitofp_setWidth_eq_uitofp (φ : FTy) (b : BitVec 1) :
    FloatOps.sitofp (F := Ideal) φ (b.setWidth 32) = FloatOps.uitofp (F := Ideal) φ b :=
  signedWide_eq_unsigned b

/-- The f32 word 0xFF800000 is -∞. -/
theorem ofBits_negInf_f32 : Ideal.ofBits .f32 0xFF800000#32 = ⊥ := by simp [Ideal.ofBits, Ideal.ieee]

/-- The fold of `max` from -∞ over three entries is the largest of them. -/
theorem fold_max_three (L : Fin 3 → EReal) :
    (Finset.univ : Finset (Fin 3)).fold max ⊥ L = max (max (L 0) (L 1)) (L 2) := by
  apply le_antisymm
  · refine (Finset.fold_max_le _).mpr ⟨bot_le, fun x _ => ?_⟩
    fin_cases x
    · exact le_max_of_le_left (le_max_left _ _)
    · exact le_max_of_le_left (le_max_right _ _)
    · exact le_max_right _ _
  · exact max_le (max_le ((Finset.le_fold_max _).mpr (Or.inr ⟨0, Finset.mem_univ _, le_rfl⟩))
      ((Finset.le_fold_max _).mpr (Or.inr ⟨1, Finset.mem_univ _, le_rfl⟩)))
      ((Finset.le_fold_max _).mpr (Or.inr ⟨2, Finset.mem_univ _, le_rfl⟩))

end Cert.LibBitReads

end
-- ==== Proof.RowSpec.lean ====
/-
  One sample of the rule table, on the extended reals.

  A sample is ten numbers: the candle's open and close, its lower and upper wick, a moving-average signal, an
  oscillator and its signal, and the upper, middle and lower band. Nine threshold tests on them give one-bit words;
  each word, read as 0 or 1 (the function `ind`), is weighted and added into two scores, one for each outer class, and
  the middle class has the constant score 3/2. The result is the softmax of the three scores.

  The two programs compute the same scores by the same operations in the same order, so the scores are stated once,
  over an abstract reading `ind` of a one-bit word (one program widens the word to 32 bits and reads it signed, the
  other reads the bit unsigned: the same number, `indSigned_eq_indUnsigned`). They differ in how the softmax is written:
  one takes the maximum and the sum of the three terms by hand, the other folds `max` from -∞ and sums from 0 over the
  three columns; `shareFold_eq_share` says these agree. The only laws used are that `max` is a lattice
  operation with bottom -∞ and that 0 is neutral for +; none needs the entries to be finite.
-/
import Idealize.ShloMosaic.PureOps.Ideal.Laws
import Idealize.ShloMosaic.Lib.ValueIdx
import proofs.«114063_j45741401703067_2_alg».proof.Proof.LibBitReads
import Mathlib.Algebra.BigOperators.Fin

noncomputable section

namespace Cert.RuleSoftmax

open Idealize.ShloMosaic

/-- An f32 word as the extended real it denotes. -/
abbrev w (b : BitVec 32) : EReal := Ideal.ofBits .f32 b

/-- The strict comparisons, as one-bit words. -/
abbrev gt (x y : EReal) : BitVec 1 := Ideal.cmp .ogt x y
abbrev lt (x y : EReal) : BitVec 1 := Ideal.cmp .olt x y

/-- |close - open|, as `max x (-x)`. -/
def bodySize (o cl : EReal) : EReal := max (cl - o) (-(cl - o))

/-- A rising candle with a body above 1/2 and an upper wick below 1e-6. -/
def strongUp (o cl uw : EReal) : BitVec 1 :=
  IntOp.andi (IntOp.andi (gt cl o) (gt (bodySize o cl) (w 0x3F000000#32))) (lt uw (w 0x358637BD#32))

/-- A falling candle with a body above 1/2 and a lower wick below 1e-6. -/
def strongDown (o cl lw : EReal) : BitVec 1 :=
  IntOp.andi (IntOp.andi (lt cl o) (gt (bodySize o cl) (w 0x3F000000#32))) (lt lw (w 0x358637BD#32))

/-- The band's relative width, (upper - lower) / middle. -/
def bandWidth (bu bm bl : EReal) : EReal := Ideal.div (bu - bl) bm

/-- Where the close sits in the band, (close - lower) / (upper - lower). -/
def pricePos (cl bu bl : EReal) : EReal := Ideal.div (cl - bl) (bu - bl)

/-- Width below 1/10 and above 1/5 at once (never both; kept because both programs compute it). -/
def squeeze (bu bm bl : EReal) : BitVec 1 :=
  IntOp.andi (lt (bandWidth bu bm bl) (w 0x3DCCCCCD#32)) (gt (bandWidth bu bm bl) (w 0x3E4CCCCD#32))

/-- At least three of four conditions: abc ∨ abd ∨ acd ∨ bcd. -/
def threeOfFour (a b c d : BitVec 1) : BitVec 1 :=
  IntOp.ori (IntOp.ori (IntOp.ori (IntOp.andi (IntOp.andi a b) c) (IntOp.andi (IntOp.andi a b) d))
    (IntOp.andi (IntOp.andi a c) d)) (IntOp.andi (IntOp.andi b c) d)

variable (ind : BitVec 1 → EReal)

/-- The first class's score: 4/5 on a strong falling candle, 7/10 on an average signal below -1/10, 4/5 on an
    oscillator above 4/5, 4/5 on a close above 4/5 of the band (plus 9/10 on the squeeze), and twice 9/10 when three of
    the four agree. -/
def scoreDown (o cl lw ma sr sg bu bm bl : EReal) : EReal :=
  (((w 0x3F4CCCCD#32 * ind (strongDown o cl lw) + w 0x3F333333#32 * ind (lt ma (w 0xBDCCCCCD#32)))
      + w 0x3F4CCCCD#32 * ind (gt sr (w 0x3F4CCCCD#32)))
    + (w 0x3F4CCCCD#32 * ind (gt (pricePos cl bu bl) (w 0x3F4CCCCD#32)) + w 0x3F666666#32 * ind (squeeze bu bm bl)))
  + w 0x40000000#32 * (w 0x3F666666#32 * ind (threeOfFour (strongDown o cl lw) (lt ma (w 0xBDCCCCCD#32))
      (gt sg (w 0x3DCCCCCD#32)) (gt (pricePos cl bu bl) (w 0x3F4CCCCD#32))))

/-- The third class's score before its agreement term: the mirror image of the first four terms above. -/
def scoreUpRules (o cl uw ma sr bu bm bl : EReal) : EReal :=
  ((w 0x3F4CCCCD#32 * ind (strongUp o cl uw) + w 0x3F333333#32 * ind (gt ma (w 0x3DCCCCCD#32)))
      + w 0x3F4CCCCD#32 * ind (lt sr (w 0x3E4CCCCD#32)))
    + (w 0x3F4CCCCD#32 * ind (lt (pricePos cl bu bl) (w 0x3E4CCCCD#32)) + w 0x3F666666#32 * ind (squeeze bu bm bl))

/-- Its agreement term: twice 9/10 when three of the four rising conditions hold. -/
def scoreUpAgree (o cl uw ma sg bu bl : EReal) : EReal :=
  w 0x40000000#32 * (w 0x3F666666#32 * ind (threeOfFour (strongUp o cl uw) (gt ma (w 0x3DCCCCCD#32))
      (lt sg (w 0xBDCCCCCD#32)) (lt (pricePos cl bu bl) (w 0x3E4CCCCD#32))))

/-- The third class's score. -/
def scoreUp (o cl uw ma sr sg bu bm bl : EReal) : EReal :=
  scoreUpRules ind o cl uw ma sr bu bm bl + scoreUpAgree ind o cl uw ma sg bu bl

/-! ## The softmax of three scores -/

/-- The largest of three. -/
def top3 (a b c : EReal) : EReal := max (max a b) c

/-- The normaliser: the three shifted exponentials, added left to right. -/
def norm3 (a b c : EReal) : EReal :=
  (Ideal.exp (a - top3 a b c) + Ideal.exp (b - top3 a b c)) + Ideal.exp (c - top3 a b c)

/-- Class `k`'s share: exp (score - max) over the sum of the three. -/
def share (a b c : EReal) (k : Fin 3) : EReal :=
  Ideal.div (Ideal.exp (![a, b, c] k - top3 a b c)) (norm3 a b c)

/-- The same, written over the three columns with the maximum folded from the word of -∞ (and met once more with that
    word) and the sum started from the word of 0. -/
def shareFold (L : Fin 3 → EReal) (k : Fin 3) : EReal :=
  Ideal.div (Ideal.exp (L k - max (w 0xFF800000#32) ((Finset.univ : Finset (Fin 3)).fold max (w 0xFF800000#32) L)))
    (w 0x00000000#32 + ∑ j : Fin 3, Ideal.exp (L j - max (w 0xFF800000#32) ((Finset.univ : Finset (Fin 3)).fold max (w 0xFF800000#32) L)))

/-- The word 0xFF800000 is -∞. -/
theorem w_negInf : w 0xFF800000#32 = ⊥ := Cert.LibBitReads.ofBits_negInf_f32

/-- The fold of `max` from -∞ over three entries is the largest of them. -/
theorem fold_max_three (L : Fin 3 → EReal) :
    (Finset.univ : Finset (Fin 3)).fold max ⊥ L = top3 (L 0) (L 1) (L 2) :=
  Cert.LibBitReads.fold_max_three L

/-- The folded form is the hand-written one: -∞ is the bottom of the order, so the extra meet and the fold's start
    drop out, and 0 is neutral for the sum. -/
theorem shareFold_eq_share (a b c : EReal) (k : Fin 3) : shareFold ![a, b, c] k = share a b c k := by
  unfold shareFold share norm3
  have h0 : w 0x00000000#32 = 0 := Ideal.ofBits_zero_f32
  rw [w_negInf, fold_max_three, max_bot_left, h0, zero_add, Fin.sum_univ_three]
  rfl

/-! ## The two readings of a one-bit word -/

/-- Widened to 32 bits without sign and read as a signed integer. -/
def indSigned (b : BitVec 1) : EReal := (((b.setWidth 32).toInt : ℝ) : EReal)

/-- Read as an unsigned integer. -/
def indUnsigned (b : BitVec 1) : EReal := ((b.toNat : ℝ) : EReal)

/-- Both are 0 or 1: the widened word is below 2^31, so its signed reading is its unsigned one. -/
theorem indSigned_eq_indUnsigned : indSigned = indUnsigned :=
  funext Cert.LibBitReads.signedWide_eq_unsigned

/-! ## A whole sample -/

/-- The three shares of a sample, from its ten numbers. -/
def sampleShare (o cl lw uw ma sr sg bu bm bl : EReal) (k : Fin 3) : EReal :=
  share (scoreDown indSigned o cl lw ma sr sg bu bm bl) (w 0x3FC00000#32) (scoreUp indSigned o cl uw ma sr sg bu bm bl) k

/-! ## The whole array -/

open Idealize.ShloMosaic.ValueIdx in
/-- The result array as one function of the argument array: entry (R, k) is share `k` of the ten entries of row `R`
    that the rules read (columns 0, 1, 5, 6, 8, 9, 10, 11, 12, 13). -/
def shares (A : (⟨2, ![2000000, 14]⟩ : Shape).Idx → EReal) : (⟨2, ![2000000, 3]⟩ : Shape).Idx → EReal := fun i =>
  sampleShare (A (ix2 (i 0 : Fin 2000000) 0)) (A (ix2 (i 0 : Fin 2000000) 1)) (A (ix2 (i 0 : Fin 2000000) 5))
    (A (ix2 (i 0 : Fin 2000000) 6)) (A (ix2 (i 0 : Fin 2000000) 8)) (A (ix2 (i 0 : Fin 2000000) 9))
    (A (ix2 (i 0 : Fin 2000000) 10)) (A (ix2 (i 0 : Fin 2000000) 11)) (A (ix2 (i 0 : Fin 2000000) 12))
    (A (ix2 (i 0 : Fin 2000000) 13)) (i 1 : Fin 3)

end Cert.RuleSoftmax

end
-- ==== Proof.KernelRow.lean ====
/-
  The kernel's tile, one sample at a time.

  The body loads a tile of 125000 samples by 14 features, transposes it so that a feature is a row of 125000 lanes,
  cuts ten of those rows out, and from there on every operation is lane by lane. So at lane `r` each cut row reads the
  tile at (r, feature), and the two scores at lane `r` are the scores of sample `r`'s ten numbers. The three shares
  are stacked as the rows of a 3 by 125000 array and transposed back, so the stored tile at (r, k) is share `k` of
  sample `r`.
-/
import proofs.«114063_j45741401703067_2_alg».proof.Proof.Gen.KernelIdeal.Skeleton
import proofs.«114063_j45741401703067_2_alg».proof.Proof.RowSpec
import Idealize.ShloMosaic.Lib.Pipeline.Value
import Idealize.ShloMosaic.Lib.ValueIdx

noncomputable section

namespace Cert.KernelIdeal.RowValue

open Cert.KernelIdeal Cert.KernelIdeal.Gen Idealize.ShloMosaic Idealize.ShloMosaic.ValueIdx Cert.RuleSoftmax

/-! ## A feature's row, read at a lane -/

/-- Row `K` of the transposed tile, cut out as a one-row array, reads at lane `r` the tile's entry (r, K). -/
theorem feature_apply (x0 : Vec Ideal S125000x14 .f32) (K : ℕ) (hK : K < 14) (h : S14x125000.Slices ![K, 0] S1x125000)
    (u : Fin 1) (r : Fin 125000) :
    extractStridedSlice S1x125000 ![K, 0] (k0_pay2 x0) h (ix2 u r) = x0 (ix2 r (⟨K, hK⟩ : Fin 14)) := by
  have hu : u.val = 0 := by omega
  refine (extractStridedSlice_apply ![K, 0] (k0_pay2 x0) h (ix2 u r) (ix2 (⟨K, hK⟩ : Fin 14) r) (fun a => ?_)).trans ?_
  · match a with
    | ⟨0, _⟩ => show K = K + u.val; omega
    | ⟨1, _⟩ => show r.val = 0 + r.val; omega
  · exact transpose_apply [1, 0] x0 transposes_S125000x14_p1_0_S14x125000 (ix2 (⟨K, hK⟩ : Fin 14) r) (ix2 r (⟨K, hK⟩ : Fin 14))
      (fun b => match b with | ⟨0, _⟩ => rfl | ⟨1, _⟩ => rfl)

variable (x0 : Vec Ideal S125000x14 .f32) (u : Fin 1) (r : Fin 125000)

theorem open_apply : k0_pay3 x0 (ix2 u r) = x0 (ix2 r 0) := feature_apply x0 0 (by omega) slices_S14x125000_o0_0_S1x125000 u r
theorem close_apply : k0_pay4 x0 (ix2 u r) = x0 (ix2 r 1) := feature_apply x0 1 (by omega) slices_S14x125000_o1_0_S1x125000 u r
theorem lowerWick_apply :
    extractStridedSlice S1x125000 ![5, 0] (k0_pay2 x0) slices_S14x125000_o5_0_S1x125000 (ix2 u r) = x0 (ix2 r 5) :=
  feature_apply x0 5 (by omega) slices_S14x125000_o5_0_S1x125000 u r
theorem upperWick_apply :
    extractStridedSlice S1x125000 ![6, 0] (k0_pay2 x0) slices_S14x125000_o6_0_S1x125000 (ix2 u r) = x0 (ix2 r 6) :=
  feature_apply x0 6 (by omega) slices_S14x125000_o6_0_S1x125000 u r
theorem average_apply : k0_pay5 x0 (ix2 u r) = x0 (ix2 r 8) := feature_apply x0 8 (by omega) slices_S14x125000_o8_0_S1x125000 u r
theorem oscillator_apply : k0_pay6 x0 (ix2 u r) = x0 (ix2 r 9) := feature_apply x0 9 (by omega) slices_S14x125000_o9_0_S1x125000 u r
theorem oscSignal_apply : k0_pay7 x0 (ix2 u r) = x0 (ix2 r 10) := feature_apply x0 10 (by omega) slices_S14x125000_o10_0_S1x125000 u r
theorem bandUpper_apply : k0_pay8 x0 (ix2 u r) = x0 (ix2 r 11) := feature_apply x0 11 (by omega) slices_S14x125000_o11_0_S1x125000 u r
theorem bandMiddle_apply :
    extractStridedSlice S1x125000 ![12, 0] (k0_pay2 x0) slices_S14x125000_o12_0_S1x125000 (ix2 u r) = x0 (ix2 r 12) :=
  feature_apply x0 12 (by omega) slices_S14x125000_o12_0_S1x125000 u r
theorem bandLower_apply : k0_pay9 x0 (ix2 u r) = x0 (ix2 r 13) := feature_apply x0 13 (by omega) slices_S14x125000_o13_0_S1x125000 u r

/-! ## The scores at a lane -/

/-- The first class's score at lane `r` is the score of sample `r`: the body's lane-by-lane operations, read at the lane,
    are the score's own operations on the ten entries. -/
theorem scoreDown_apply :
    k0_pay25 (F := Ideal) (k0_pay5 x0) (k0_pay7 x0) (k0_pay12 x0) (k0_pay14 x0) (k0_pay15 x0) (k0_pay19 (k0_pay15 x0) (k0_pay16 x0))
        (k0_pay21 (k0_pay6 x0)) (k0_pay23 (k0_pay5 x0)) (ix2 u r)
      = scoreDown indSigned (x0 (ix2 r 0)) (x0 (ix2 r 1)) (x0 (ix2 r 5)) (x0 (ix2 r 8)) (x0 (ix2 r 9)) (x0 (ix2 r 10))
          (x0 (ix2 r 11)) (x0 (ix2 r 12)) (x0 (ix2 r 13)) := by
  rw [← open_apply x0 u r, ← close_apply x0 u r, ← lowerWick_apply x0 u r, ← average_apply x0 u r, ← oscillator_apply x0 u r,
    ← oscSignal_apply x0 u r, ← bandUpper_apply x0 u r, ← bandMiddle_apply x0 u r, ← bandLower_apply x0 u r]
  rfl

/-- The third class's four rule terms at lane `r`. -/
theorem scoreUpRules_apply :
    k0_pay26 (F := Ideal) (k0_pay13 x0) (k0_pay18 (F := Ideal) (k0_pay16 x0) (k0_pay17 x0)) (k0_pay20 (k0_pay6 x0)) (k0_pay22 (k0_pay5 x0)) (ix2 u r)
      = scoreUpRules indSigned (x0 (ix2 r 0)) (x0 (ix2 r 1)) (x0 (ix2 r 6)) (x0 (ix2 r 8)) (x0 (ix2 r 9))
          (x0 (ix2 r 11)) (x0 (ix2 r 12)) (x0 (ix2 r 13)) := by
  rw [← open_apply x0 u r, ← close_apply x0 u r, ← upperWick_apply x0 u r, ← average_apply x0 u r, ← oscillator_apply x0 u r,
    ← bandUpper_apply x0 u r, ← bandMiddle_apply x0 u r, ← bandLower_apply x0 u r]
  rfl

/-- The third class's agreement term at lane `r`. -/
theorem scoreUpAgree_apply :
    k0_pay27 (F := Ideal) (k0_pay7 x0) (k0_pay11 x0) (k0_pay15 x0) (k0_pay24 (k0_pay5 x0)) (ix2 u r)
      = scoreUpAgree indSigned (x0 (ix2 r 0)) (x0 (ix2 r 1)) (x0 (ix2 r 6)) (x0 (ix2 r 8)) (x0 (ix2 r 10))
          (x0 (ix2 r 11)) (x0 (ix2 r 13)) := by
  rw [← open_apply x0 u r, ← close_apply x0 u r, ← upperWick_apply x0 u r, ← average_apply x0 u r,
    ← oscSignal_apply x0 u r, ← bandUpper_apply x0 u r, ← bandLower_apply x0 u r]
  rfl

/-! ## The stored tile -/

/-- Share `k` of every lane, from the first score, the third score's rule terms and its agreement term. -/
def shareRow (a b c : FVec Ideal S1x125000 .f32) (k : Fin 3) : FVec Ideal S1x125000 .f32 :=
  fun i => share (a i) (w 0x3FC00000#32) (b i + c i) k

/-- What the body stores: the three share rows stacked and transposed. -/
theorem stored_eq (a b c : FVec Ideal S1x125000 .f32) :
    k0_pay1 a b c = transpose S125000x3 [1, 0]
      (concatenate S3x125000 0 [⟨S1x125000, shareRow a b c 0⟩, ⟨S1x125000, shareRow a b c 1⟩, ⟨S1x125000, shareRow a b c 2⟩]
        concatenates_S1x125000_S1x125000_S1x125000_S3x125000_d0) transposes_S3x125000_p1_0_S125000x3 := rfl

/-- So the stored tile at (r, k) is share `k` at lane `r`. -/
theorem stored_apply (a b c : FVec Ideal S1x125000 .f32) (k : Fin 3) :
    k0_pay1 a b c (ix2 r k) = share (a (ix2 (0 : Fin 1) r)) (w 0x3FC00000#32) (b (ix2 (0 : Fin 1) r) + c (ix2 (0 : Fin 1) r)) k := by
  rw [stored_eq]
  refine (transpose_apply [1, 0] _ transposes_S3x125000_p1_0_S125000x3 (ix2 r k) (ix2 k r)
    (fun b => match b with | ⟨0, _⟩ => rfl | ⟨1, _⟩ => rfl)).trans ?_
  have hc : Shape.Concatenates (List.map (·.1) ([⟨S1x125000, shareRow a b c 0⟩, ⟨S1x125000, shareRow a b c 1⟩, ⟨S1x125000, shareRow a b c 2⟩] : List ((s : Shape) × (s.Idx → EReal)))) S3x125000 0 :=
    concatenates_S1x125000_S1x125000_S1x125000_S3x125000_d0
  match k with
  | ⟨0, _⟩ =>
    exact concatenate_apply_piece (t := S3x125000) (0 : Fin 2) [⟨S1x125000, shareRow a b c 0⟩, ⟨S1x125000, shareRow a b c 1⟩, ⟨S1x125000, shareRow a b c 2⟩] hc _ 0 (by simp) S1x125000
      (shareRow a b c 0) rfl rfl 0 rfl (ix2 (0 : Fin 1) r)
      (fun b hb => match b, hb with | ⟨0, _⟩, hb => absurd rfl hb | ⟨1, _⟩, _ => rfl) rfl
  | ⟨1, _⟩ =>
    exact concatenate_apply_piece (t := S3x125000) (0 : Fin 2) [⟨S1x125000, shareRow a b c 0⟩, ⟨S1x125000, shareRow a b c 1⟩, ⟨S1x125000, shareRow a b c 2⟩] hc _ 1 (by simp) S1x125000
      (shareRow a b c 1) rfl rfl 1 rfl (ix2 (0 : Fin 1) r)
      (fun b hb => match b, hb with | ⟨0, _⟩, hb => absurd rfl hb | ⟨1, _⟩, _ => rfl) rfl
  | ⟨2, _⟩ =>
    exact concatenate_apply_piece (t := S3x125000) (0 : Fin 2) [⟨S1x125000, shareRow a b c 0⟩, ⟨S1x125000, shareRow a b c 1⟩, ⟨S1x125000, shareRow a b c 2⟩] hc _ 2 (by simp) S1x125000
      (shareRow a b c 2) rfl rfl 2 rfl (ix2 (0 : Fin 1) r)
      (fun b hb => match b, hb with | ⟨0, _⟩, hb => absurd rfl hb | ⟨1, _⟩, _ => rfl) rfl

/-- The whole body on a tile: the stored tile at (r, k) is share `k` of sample `r`'s ten entries. -/
theorem body_apply (k : Fin 3) :
    k0_pay1 (F := Ideal)
        (k0_pay25 (k0_pay5 x0) (k0_pay7 x0) (k0_pay12 x0) (k0_pay14 x0) (k0_pay15 x0) (k0_pay19 (k0_pay15 x0) (k0_pay16 x0))
          (k0_pay21 (k0_pay6 x0)) (k0_pay23 (k0_pay5 x0)))
        (k0_pay26 (k0_pay13 x0) (k0_pay18 (F := Ideal) (k0_pay16 x0) (k0_pay17 x0)) (k0_pay20 (k0_pay6 x0)) (k0_pay22 (k0_pay5 x0)))
        (k0_pay27 (k0_pay7 x0) (k0_pay11 x0) (k0_pay15 x0) (k0_pay24 (k0_pay5 x0))) (ix2 r k)
      = sampleShare (x0 (ix2 r 0)) (x0 (ix2 r 1)) (x0 (ix2 r 5)) (x0 (ix2 r 6)) (x0 (ix2 r 8)) (x0 (ix2 r 9)) (x0 (ix2 r 10))
          (x0 (ix2 r 11)) (x0 (ix2 r 12)) (x0 (ix2 r 13)) k := by
  rw [stored_apply, scoreDown_apply, scoreUpRules_apply, scoreUpAgree_apply]
  rfl

end Cert.KernelIdeal.RowValue

end
-- ==== Proof.KernelArray.lean ====
/-
  From the kernel's tiles to its whole result array.

  The grid has 16 points; at point `t` the input window holds rows 125000 t … 125000 t + 124999 of the argument (all 14
  columns) and the output window is written back to the same rows of the result (all 3 columns). The body turns a tile
  of samples into the tile of their shares, so what point `t` writes back is row block `t` of `shares` of the
  argument; the 16 row blocks cover the result, so after the run the result array is `shares` of the argument.
-/
import proofs.«114063_j45741401703067_2_alg».proof.Proof.Gen.KernelIdeal.Value
import proofs.«114063_j45741401703067_2_alg».proof.Proof.KernelRow

noncomputable section

namespace Cert.KernelIdeal.ArrayValue

open Cert.KernelIdeal Cert.KernelIdeal.Gen Cert.KernelIdeal.RowValue
open Idealize.ShloMosaic Idealize.ShloMosaic.TcCoe Idealize.SL.Sem Idealize.ShloMosaic.ValueIdx Cert.RuleSoftmax
open Idealize.ShloMosaic.Pipeline (Dat)

variable (m : (ℓ : Loc nD τ sig) → Buf (Elt Ideal) ℓ) (ρ : Dev nD → PrngReg)

theorem zeroOffsets : (![0, 0] : Fin 2 → Nat) = fun _ => 0 := funext fun a => by fin_cases a <;> rfl

/-- The two windows move together down the rows and never along the columns; there are 16 row blocks. -/
theorem index_facts : ∀ t : Fin cfg0.N, win0_0.index t (0 : Fin 2) = win0_1.index t (0 : Fin 2)
    ∧ win0_0.index t (1 : Fin 2) = 0 ∧ win0_1.index t (1 : Fin 2) = 0 ∧ win0_1.index t (0 : Fin 2) ≤ 15 :=
  (by decide +kernel : ∀ t : Fin grid0.N, _)

/-- Every row block is some point's. -/
theorem index_onto : ∀ q : Fin 16, ∃ t : Fin cfg0.N, win0_1.index t = ![q.val, 0] :=
  (by decide +kernel : ∀ q : Fin 16, ∃ t : Fin grid0.N, win0_1.index t = ![q.val, 0])

/-- A tile of samples that is row block `b` of an array `A` gives, through the body, row block `b` of `shares A`. -/
theorem tile_eq (x0 : Vec Ideal S125000x14 .f32) (A : S2000000x14.Idx → EReal) (b : ℕ)
    (hx : ∀ (r : Fin 125000) (K : Fin 14) (i : S2000000x14.Idx), (i 0).val = b * 125000 + r.val → (i 1).val = K.val →
      x0 (ix2 r K) = A i)
    (y : S125000x3.Idx) (i : S2000000x3.Idx) (hi0 : (i 0).val = b * 125000 + (y 0).val) (hi1 : (i 1).val = (y 1).val) :
    k0_pay1 (F := Ideal)
        (k0_pay25 (k0_pay5 x0) (k0_pay7 x0) (k0_pay12 x0) (k0_pay14 x0) (k0_pay15 x0) (k0_pay19 (k0_pay15 x0) (k0_pay16 x0))
          (k0_pay21 (k0_pay6 x0)) (k0_pay23 (k0_pay5 x0)))
        (k0_pay26 (k0_pay13 x0) (k0_pay18 (F := Ideal) (k0_pay16 x0) (k0_pay17 x0)) (k0_pay20 (k0_pay6 x0)) (k0_pay22 (k0_pay5 x0)))
        (k0_pay27 (k0_pay7 x0) (k0_pay11 x0) (k0_pay15 x0) (k0_pay24 (k0_pay5 x0))) y
      = shares A i := by
  obtain ⟨r, k, rfl⟩ : ∃ (r : Fin 125000) (k : Fin 3), y = ix2 r k := ⟨y 0, y 1, eq_ix2 y⟩
  rw [body_apply]
  have hk : (i 1 : Fin 3) = k := Fin.ext hi1
  have hA : ∀ K : Fin 14, x0 (ix2 r K) = A (ix2 (i 0 : Fin 2000000) K) := fun K => hx r K _ hi0 rfl
  unfold shares
  rw [hA 0, hA 1, hA 5, hA 6, hA 8, hA 9, hA 10, hA 11, hA 12, hA 13, hk]

/-- The input window's block at point `t`, entry by entry, is the argument at the block's offset plus the entry's
    coordinates. -/
theorem iblk_apply (c : Dev nD) (t : Fin cfg0.N) (x : S125000x14.Idx) (i : S2000000x14.Idx)
    (h0 : (i 0).val = win0_0.index t 0 * 125000 + (x 0).val) (h1 : (i 1).val = win0_0.index t 1 * 14 + (x 1).val) :
    (iblk m c 0 t : Vec Ideal S125000x14 .f32) x = (V m c main_arg0 : S2000000x14.Idx → EReal) i := by
  unfold iblk
  rw [View.read_apply]
  show V m c main_arg0 _ = V m c main_arg0 _
  congr 1
  funext a
  apply Fin.ext
  match a with
  | ⟨0, _⟩ => show win0_0.index t 0 * 125000 + 1 * (x 0).val = (i 0).val; omega
  | ⟨1, _⟩ => show win0_0.index t 1 * 14 + 1 * (x 1).val = (i 1).val; omega

/-- What point `t` writes back is row block `t` of `shares` of the argument as the region finds it. -/
theorem flushed_eq (c : Dev nD) (t : Fin cfg0.N) :
    (dats m 0 c).flushed 1 t = ((cfg0.win 1).blk t).view.read (Elt Ideal) (shares (V m c main_arg0)) := by
  rw [Cert.KernelIdeal.Value.flushed1]
  unfold out0_1
  rw [View.canon_unit_zero zeroOffsets]
  simp only [View.ld_unit_zero (S := S125000x14) zeroOffsets]
  obtain ⟨e0, e1, e2, e3⟩ := index_facts t
  funext y
  rw [View.read_apply]
  exact tile_eq (iblk m c 0 t) (V m c main_arg0) (win0_1.index t 0)
    (fun r K i h0 h1 => iblk_apply m c t (ix2 r K) i (by rw [e0]; exact h0) (by rw [e1]; show (i 1).val = 0 * 14 + K.val; omega))
    y (((cfg0.win 1).blk t).view.emb y)
    (by show win0_1.index t 0 * 125000 + 1 * (y 0).val = _; omega)
    (by show win0_1.index t 1 * 3 + 1 * (y 1).val = _; rw [e2]; omega)

/-- An index of the result is in point `t`'s block iff each coordinate is in the block's range on its axis. -/
theorem mem_blk (t : Fin cfg0.N) (i : S2000000x3.Idx) :
    i ∈ ((cfg0.win 1).blk t).view.set ↔ ∀ a : Fin 2, win0_1.index t a * S125000x3.size a ≤ (i a).val
      ∧ (i a).val < win0_1.index t a * S125000x3.size a + S125000x3.size a := by
  show i ∈ ((View.whole main_v0).slice (win0_1.rect t)).set ↔ _
  rw [View.set_slice_whole, Rect.mem_set_unit]
  exact Iff.rfl

/-- Every index of the result is in the block of the point whose row block holds its row. -/
theorem cover (i : S2000000x3.Idx) :
    ∃ t : Fin cfg0.N, (cfg0.win 1).flush t = true ∧ i ∈ ((cfg0.win 1).blk t).view.set := by
  have hi0 : (i 0).val < 2000000 := (i 0).isLt
  have hi1 : (i 1).val < 3 := (i 1).isLt
  obtain ⟨t, ht⟩ := index_onto ⟨(i 0).val / 125000, by omega⟩
  have q0 : win0_1.index t (0 : Fin 2) = (i 0).val / 125000 := congrFun ht 0
  have q1 : win0_1.index t (1 : Fin 2) = 0 := congrFun ht 1
  refine ⟨t, flush0_1 t, ?_⟩
  rw [mem_blk]
  intro a
  match a with
  | ⟨0, _⟩ =>
    show win0_1.index t (0 : Fin 2) * 125000 ≤ (i 0).val ∧ (i 0).val < win0_1.index t (0 : Fin 2) * 125000 + 125000
    omega
  | ⟨1, _⟩ =>
    show win0_1.index t (1 : Fin 2) * 3 ≤ (i 1).val ∧ (i 1).val < win0_1.index t (1 : Fin 2) * 3 + 3
    omega

/-- The result array after the run. -/
theorem final (c : Dev nD) : (dats m 0 c).arrAt 1 cfg0.N = shares (m ((c : Thread nD τ).loc main_arg0)) :=
  (dats m 0 c).arrAt_eq_of_cover 1 (shares (V m c main_arg0)) (fun t _ => flushed_eq m c t) cover

/-- The kernel's run: the result array ends at `shares` of the argument, the argument unchanged. -/
theorem run : θ_run defs (onTc (τ := τ) (main (F := Ideal))) ⟨m, fun _ => 0, ρ⟩ fun r => ∀ c : Dev nD,
      r.2.mem ((c : Thread nD τ).loc main_v0) = shares (m ((c : Thread nD τ).loc main_arg0))
      ∧ r.2.mem ((c : Thread nD τ).loc main_arg0) = m ((c : Thread nD τ).loc main_arg0) :=
  (θ_run defs _ _).mono (fun r h c => ⟨(h c).1.trans (final m c), (h c).2⟩) (Cert.KernelIdeal.Value.run_blocks m ρ)

end Cert.KernelIdeal.ArrayValue

end
-- ==== Proof.LibColumnCast.lean ====
/-
  A one-column matrix `[a, 1]` viewed as a vector `[a]`, read at an index: entry `i` is the column's entry `(i, 0)`.
  (The inverse of the cast `[a] → [a, 1]`; what dropping the kept axis of a row reduction does.)
-/
import Idealize.ShloMosaic.Lib.Pipeline.Value
import Idealize.ShloMosaic.Lib.ValueIdx

namespace Cert.LibColumnCast

open Idealize.ShloMosaic Idealize.ShloMosaic.ValueIdx

variable {α : Type}

/-- An `[a, 1]` array cast to `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    omega)

end Cert.LibColumnCast
-- ==== Proof.RefRow.lean ====
/-
  The reference, one sample at a time.

  The reference cuts ten columns out of the 2000000 by 14 array, each re-laid as a vector of 2000000 samples, and
  computes the two scores sample by sample on those vectors; so at sample `R` each column reads the array at
  (R, feature) and the scores are the scores of sample `R`'s ten numbers. The three score vectors become the three
  columns of a 2000000 by 3 array, and the softmax runs along that array's rows: the row maximum folded from -∞, the
  shifted exponentials, their sum from 0, the quotient. At (R, k) that is the folded form of share `k` of the three
  scores of sample `R`.
-/
import proofs.«114063_j45741401703067_2_alg».proof.Proof.Gen.ReferenceIdeal.Run
import proofs.«114063_j45741401703067_2_alg».proof.Proof.RowSpec
import proofs.«114063_j45741401703067_2_alg».proof.Proof.LibColumnCast
import Idealize.ShloMosaic.Lib.Pipeline.Value
import Idealize.ShloMosaic.Lib.ValueIdx
import Idealize.ShloMosaic.Lib.IdealHost

noncomputable section

namespace Cert.ReferenceIdeal.RowValue

open Cert.ReferenceIdeal Cert.ReferenceIdeal.Gen Cert.ReferenceIdeal.Value Idealize.ShloMosaic Idealize.ShloMosaic.ValueIdx
open Idealize.ShloMosaic.StableHlo Cert.RuleSoftmax

/-! ## A column, read at a sample -/

/-- Column `K` of the array, cut out as a one-column array and re-laid as a vector, reads at sample `R` the
    array's entry (R, K). -/
theorem column_apply (A : S2000000x14.Idx → EReal) (K : ℕ) (hK : K < 14) (h : S2000000x14.Slices ![0, K] S2000000x1)
    (R : Fin 2000000) :
    shapeCast S2000000 (extractStridedSlice S2000000x1 ![0, K] A h) shapeCasts_S2000000x1_S2000000 (ix1 R)
      = A (ix2 R (⟨K, hK⟩ : Fin 14)) := by
  refine (Cert.LibColumnCast.shapeCast_a1_a_apply _ shapeCasts_S2000000x1_S2000000 R).trans ?_
  exact extractStridedSlice_apply ![0, K] A h (ix2 R (0 : Fin 1)) (ix2 R (⟨K, hK⟩ : Fin 14)) (fun a =>
    match a with
    | ⟨0, _⟩ => by show R.val = 0 + R.val; omega
    | ⟨1, _⟩ => by show K = K + 0; omega)

variable (V0 : Valuation τ sig (Elt Ideal)) (R : Fin 2000000)

/-- The argument array as the reference finds it. -/
abbrev arg : S2000000x14.Idx → EReal := V0 (Proc.devRef .tc main_arg0)

/-- The three columns the reference's run does not name: the two wicks and the middle band. -/
def lowerWick : FVec Ideal S2000000 .f32 :=
  shapeCast S2000000 (extractStridedSlice S2000000x1 ![0, 5] (arg V0) slices_S2000000x14_S2000000x1_0_5) shapeCasts_S2000000x1_S2000000
def upperWick : FVec Ideal S2000000 .f32 :=
  shapeCast S2000000 (extractStridedSlice S2000000x1 ![0, 6] (arg V0) slices_S2000000x14_S2000000x1_0_6) shapeCasts_S2000000x1_S2000000
def bandMiddle : FVec Ideal S2000000 .f32 :=
  shapeCast S2000000 (extractStridedSlice S2000000x1 ![0, 12] (arg V0) slices_S2000000x14_S2000000x1_0_12) shapeCasts_S2000000x1_S2000000

theorem open_apply : res_main_v1 V0 (ix1 R) = arg V0 (ix2 R 0) := column_apply (arg V0) 0 (by omega) slices_S2000000x14_S2000000x1_0_0 R
theorem close_apply : res_main_v3 V0 (ix1 R) = arg V0 (ix2 R 1) := column_apply (arg V0) 1 (by omega) slices_S2000000x14_S2000000x1_0_1 R
theorem lowerWick_apply : lowerWick V0 (ix1 R) = arg V0 (ix2 R 5) := column_apply (arg V0) 5 (by omega) slices_S2000000x14_S2000000x1_0_5 R
theorem upperWick_apply : upperWick V0 (ix1 R) = arg V0 (ix2 R 6) := column_apply (arg V0) 6 (by omega) slices_S2000000x14_S2000000x1_0_6 R
theorem average_apply : res_main_v9 V0 (ix1 R) = arg V0 (ix2 R 8) := column_apply (arg V0) 8 (by omega) slices_S2000000x14_S2000000x1_0_8 R
theorem oscillator_apply : res_main_v11 V0 (ix1 R) = arg V0 (ix2 R 9) := column_apply (arg V0) 9 (by omega) slices_S2000000x14_S2000000x1_0_9 R
theorem oscSignal_apply : res_main_v13 V0 (ix1 R) = arg V0 (ix2 R 10) := column_apply (arg V0) 10 (by omega) slices_S2000000x14_S2000000x1_0_10 R
theorem bandUpper_apply : res_main_v15 V0 (ix1 R) = arg V0 (ix2 R 11) := column_apply (arg V0) 11 (by omega) slices_S2000000x14_S2000000x1_0_11 R
theorem bandMiddle_apply : bandMiddle V0 (ix1 R) = arg V0 (ix2 R 12) := column_apply (arg V0) 12 (by omega) slices_S2000000x14_S2000000x1_0_12 R
theorem bandLower_apply : res_main_v19 V0 (ix1 R) = arg V0 (ix2 R 13) := column_apply (arg V0) 13 (by omega) slices_S2000000x14_S2000000x1_0_13 R

/-! ## The score vectors and the array of three columns -/

/-- The first class's score of every sample, over the column vectors. -/
def downRow : FVec Ideal S2000000 .f32 := fun j =>
  scoreDown indUnsigned (res_main_v1 V0 j) (res_main_v3 V0 j) (lowerWick V0 j) (res_main_v9 V0 j) (res_main_v11 V0 j)
    (res_main_v13 V0 j) (res_main_v15 V0 j) (bandMiddle V0 j) (res_main_v19 V0 j)

/-- The third class's score of every sample. -/
def upRow : FVec Ideal S2000000 .f32 := fun j =>
  scoreUp indUnsigned (res_main_v1 V0 j) (res_main_v3 V0 j) (upperWick V0 j) (res_main_v9 V0 j) (res_main_v11 V0 j)
    (res_main_v13 V0 j) (res_main_v15 V0 j) (bandMiddle V0 j) (res_main_v19 V0 j)

/-- The middle class's constant score, for every sample. -/
def midRow : FVec Ideal S2000000 .f32 := fun _ => w 0x3FC00000#32

/-- The reference's array of scores: the three score vectors, each as one column, side by side (its own operations,
    vector by vector, are the scores' operations at each sample). -/
theorem scores_eq :
    res_main_v146 V0 = concatenate S2000000x3 1 [⟨S2000000x1, broadcastInDim S2000000x1 ![0] bcast_S2000000_S2000000x1_0 (downRow V0)⟩, ⟨S2000000x1, broadcastInDim S2000000x1 ![0] bcast_S2000000_S2000000x1_0 midRow⟩, ⟨S2000000x1, broadcastInDim S2000000x1 ![0] bcast_S2000000_S2000000x1_0 (upRow V0)⟩]
      concatenates_S2000000x1_S2000000x1_S2000000x1_S2000000x3_d1 := rfl

/-- A vector as one column, read at (R, 0). -/
theorem asColumn_apply (v : FVec Ideal S2000000 .f32) (z : Fin 1) : broadcastInDim S2000000x1 ![0] bcast_S2000000_S2000000x1_0 v (ix2 R z) = v (ix1 R) :=
  broadcastInDim_apply ![0] bcast_S2000000_S2000000x1_0 v (ix2 R z) (ix1 R) (fun a => match a with | ⟨0, _⟩ => rfl)

/-- Three vectors set side by side as the columns of a 2000000 by 3 array: entry (R, k) is vector `k` at `R`. -/
theorem threeColumns_apply (v0 v1 v2 : FVec Ideal S2000000 .f32) (k : Fin 3) :
    concatenate S2000000x3 1 [⟨S2000000x1, broadcastInDim S2000000x1 ![0] bcast_S2000000_S2000000x1_0 v0⟩, ⟨S2000000x1, broadcastInDim S2000000x1 ![0] bcast_S2000000_S2000000x1_0 v1⟩, ⟨S2000000x1, broadcastInDim S2000000x1 ![0] bcast_S2000000_S2000000x1_0 v2⟩]
        concatenates_S2000000x1_S2000000x1_S2000000x1_S2000000x3_d1 (ix2 R k)
      = ![v0 (ix1 R), v1 (ix1 R), v2 (ix1 R)] k := by
  have hc : Shape.Concatenates (List.map (·.1) ([⟨S2000000x1, broadcastInDim S2000000x1 ![0] bcast_S2000000_S2000000x1_0 v0⟩, ⟨S2000000x1, broadcastInDim S2000000x1 ![0] bcast_S2000000_S2000000x1_0 v1⟩, ⟨S2000000x1, broadcastInDim S2000000x1 ![0] bcast_S2000000_S2000000x1_0 v2⟩] : List ((s : Shape) × (s.Idx → EReal)))) S2000000x3 1 :=
    concatenates_S2000000x1_S2000000x1_S2000000x1_S2000000x3_d1
  have hi : ∀ b : Fin S2000000x1.rank, b.cast (rfl : S2000000x1.rank = S2000000x3.rank) ≠ (1 : Fin 2) →
      ((ix2 R (0 : Fin 1)) b).val = ((ix2 R k) (b.cast (rfl : S2000000x1.rank = S2000000x3.rank))).val :=
    fun b hb => match b, hb with | ⟨0, _⟩, _ => rfl | ⟨1, _⟩, hb => absurd rfl hb
  match k with
  | ⟨0, _⟩ =>
    refine (concatenate_apply_piece (t := S2000000x3) (1 : Fin 2) [⟨S2000000x1, broadcastInDim S2000000x1 ![0] bcast_S2000000_S2000000x1_0 v0⟩, ⟨S2000000x1, broadcastInDim S2000000x1 ![0] bcast_S2000000_S2000000x1_0 v1⟩, ⟨S2000000x1, broadcastInDim S2000000x1 ![0] bcast_S2000000_S2000000x1_0 v2⟩] hc _ 0 (by simp) S2000000x1
      (broadcastInDim S2000000x1 ![0] bcast_S2000000_S2000000x1_0 v0) rfl rfl 0 rfl (ix2 R (0 : Fin 1)) hi rfl).trans ?_
    exact asColumn_apply R v0 0
  | ⟨1, _⟩ =>
    refine (concatenate_apply_piece (t := S2000000x3) (1 : Fin 2) [⟨S2000000x1, broadcastInDim S2000000x1 ![0] bcast_S2000000_S2000000x1_0 v0⟩, ⟨S2000000x1, broadcastInDim S2000000x1 ![0] bcast_S2000000_S2000000x1_0 v1⟩, ⟨S2000000x1, broadcastInDim S2000000x1 ![0] bcast_S2000000_S2000000x1_0 v2⟩] hc _ 1 (by simp) S2000000x1
      (broadcastInDim S2000000x1 ![0] bcast_S2000000_S2000000x1_0 v1) rfl rfl 1 rfl (ix2 R (0 : Fin 1)) hi rfl).trans ?_
    exact asColumn_apply R v1 0
  | ⟨2, _⟩ =>
    refine (concatenate_apply_piece (t := S2000000x3) (1 : Fin 2) [⟨S2000000x1, broadcastInDim S2000000x1 ![0] bcast_S2000000_S2000000x1_0 v0⟩, ⟨S2000000x1, broadcastInDim S2000000x1 ![0] bcast_S2000000_S2000000x1_0 v1⟩, ⟨S2000000x1, broadcastInDim S2000000x1 ![0] bcast_S2000000_S2000000x1_0 v2⟩] hc _ 2 (by simp) S2000000x1
      (broadcastInDim S2000000x1 ![0] bcast_S2000000_S2000000x1_0 v2) rfl rfl 2 rfl (ix2 R (0 : Fin 1)) hi rfl).trans ?_
    exact asColumn_apply R v2 0

/-- The first class's score vector at sample `R`. -/
theorem downRow_apply :
    downRow V0 (ix1 R) = scoreDown indUnsigned (arg V0 (ix2 R 0)) (arg V0 (ix2 R 1)) (arg V0 (ix2 R 5)) (arg V0 (ix2 R 8))
      (arg V0 (ix2 R 9)) (arg V0 (ix2 R 10)) (arg V0 (ix2 R 11)) (arg V0 (ix2 R 12)) (arg V0 (ix2 R 13)) := by
  show scoreDown indUnsigned (res_main_v1 V0 (ix1 R)) (res_main_v3 V0 (ix1 R)) (lowerWick V0 (ix1 R)) (res_main_v9 V0 (ix1 R))
    (res_main_v11 V0 (ix1 R)) (res_main_v13 V0 (ix1 R)) (res_main_v15 V0 (ix1 R)) (bandMiddle V0 (ix1 R)) (res_main_v19 V0 (ix1 R)) = _
  rw [open_apply, close_apply, lowerWick_apply, average_apply, oscillator_apply, oscSignal_apply, bandUpper_apply,
    bandMiddle_apply, bandLower_apply]

/-- The third class's score vector at sample `R`. -/
theorem upRow_apply :
    upRow V0 (ix1 R) = scoreUp indUnsigned (arg V0 (ix2 R 0)) (arg V0 (ix2 R 1)) (arg V0 (ix2 R 6)) (arg V0 (ix2 R 8))
      (arg V0 (ix2 R 9)) (arg V0 (ix2 R 10)) (arg V0 (ix2 R 11)) (arg V0 (ix2 R 12)) (arg V0 (ix2 R 13)) := by
  show scoreUp indUnsigned (res_main_v1 V0 (ix1 R)) (res_main_v3 V0 (ix1 R)) (upperWick V0 (ix1 R)) (res_main_v9 V0 (ix1 R))
    (res_main_v11 V0 (ix1 R)) (res_main_v13 V0 (ix1 R)) (res_main_v15 V0 (ix1 R)) (bandMiddle V0 (ix1 R)) (res_main_v19 V0 (ix1 R)) = _
  rw [open_apply, close_apply, upperWick_apply, average_apply, oscillator_apply, oscSignal_apply, bandUpper_apply,
    bandMiddle_apply, bandLower_apply]

/-- The score array at (R, k): score `k` of sample `R`'s ten entries. -/
theorem scores_apply (k : Fin 3) :
    res_main_v146 V0 (ix2 R k)
      = ![scoreDown indUnsigned (arg V0 (ix2 R 0)) (arg V0 (ix2 R 1)) (arg V0 (ix2 R 5)) (arg V0 (ix2 R 8)) (arg V0 (ix2 R 9))
            (arg V0 (ix2 R 10)) (arg V0 (ix2 R 11)) (arg V0 (ix2 R 12)) (arg V0 (ix2 R 13)),
          w 0x3FC00000#32,
          scoreUp indUnsigned (arg V0 (ix2 R 0)) (arg V0 (ix2 R 1)) (arg V0 (ix2 R 6)) (arg V0 (ix2 R 8)) (arg V0 (ix2 R 9))
            (arg V0 (ix2 R 10)) (arg V0 (ix2 R 11)) (arg V0 (ix2 R 12)) (arg V0 (ix2 R 13))] k := by
  rw [scores_eq, threeColumns_apply, downRow_apply, upRow_apply]
  rfl

end Cert.ReferenceIdeal.RowValue

end
-- ==== Proof.RefValue.lean ====
/-
  The reference's softmax along the rows of a 2000000 by 3 array, and its result as one function of the argument.

  For any 2000000 by 3 array `L`: the row maximum at `R` is the fold of `max` from the word of -∞ over the row's three
  entries (met once more with that word); the shifted exponential at (R, k) is exp (L(R, k) - that maximum); the row
  sum is the word of 0 plus the sum of the row's three shifted exponentials; and the quotient at (R, k) is the folded
  share of the row. With `L` the array of scores this is share `k` of sample `R`, so the reference's result is the
  whole-array function `shares` of its argument.
-/
import proofs.«114063_j45741401703067_2_alg».proof.Proof.RefRow
import Idealize.ShloMosaic.PureOps.Reduce

noncomputable section

namespace Cert.ReferenceIdeal.ArrayValue

open Cert.ReferenceIdeal Cert.ReferenceIdeal.Gen Cert.ReferenceIdeal.Value Cert.ReferenceIdeal.RowValue
open Idealize.ShloMosaic Idealize.ShloMosaic.ValueIdx Idealize.ShloMosaic.StableHlo Cert.RuleSoftmax

/-- The rows' axis can be reduced away: the shapes' ranks and sizes agree. -/
theorem rowsReduce : S2000000x3.Reduces [1] S2000000 := by decide

/-- Row `R`'s index with the column `q` put back is (R, q). -/
theorem lift_apply (R : Fin 2000000) (q : Fin (S2000000x3.size 1)) :
    rowsReduce.lift (ix1 R) q = ix2 R (⟨q.val, q.isLt⟩ : Fin 3) := by
  funext ax; apply Fin.ext
  match ax with
  | ⟨0, _⟩ => rfl
  | ⟨1, _⟩ => rfl

variable (L : FVec Ideal S2000000x3 .f32) (R : Fin 2000000)

/-- A vector kept as one column and spread over the three columns reads, at (R, k), the vector at `R`. -/
theorem spread_apply (v : FVec Ideal S2000000 .f32) (k : Fin 3) : broadcastInDim S2000000x3 ![0, 1] bcast_S2000000x1_S2000000x3_0_1 (broadcastInDim S2000000x1 ![0] bcast_S2000000_S2000000x1_0 v) (ix2 R k) = v (ix1 R) :=
  (broadcastInDim_apply ![0, 1] bcast_S2000000x1_S2000000x3_0_1 (broadcastInDim S2000000x1 ![0] bcast_S2000000_S2000000x1_0 v) (ix2 R k) (ix2 R (0 : Fin 1))
    (fun a => match a with | ⟨0, _⟩ => rfl | ⟨1, _⟩ => rfl)).trans (asColumn_apply R v 0)

/-- The host's exponential at an index is the exponential of the entry. -/
theorem hostExp_apply {s : Shape} {φ : FTy} (x : FVec Ideal s φ) (i : s.Idx) : Host.exp x i = Ideal.exp (x i) := rfl

/-- The rows' maxima, as the reference takes them. -/
def rowMax : FVec Ideal S2000000 .f32 :=
  maximumf (broadcastInDim S2000000 ![] bcast_S_S2000000 (constant S_ .f32 0xFF800000#32))
    (Host.reduce FloatOps.maximumf L (constant S_ .f32 0xFF800000#32) reducesTo_S2000000x3_S2000000_d1 h_S_)

theorem rowMax_apply :
    rowMax L (ix1 R) = max (w 0xFF800000#32) ((Finset.univ : Finset (Fin 3)).fold max (w 0xFF800000#32) (fun q => L (ix2 R q))) := by
  unfold rowMax
  rw [maximumf_apply, broadcastInDim_scalar_apply, constant_apply,
    Host.reduce_eq_fold_single FloatOps.maximumf L (constant S_ .f32 0xFF800000#32) reducesTo_S2000000x3_S2000000_d1 rowsReduce h_S_ (ix1 R)]
  have hf : (L ∘ rowsReduce.lift (ix1 R)) = fun q : Fin 3 => L (ix2 R q) := funext fun q => congrArg L (lift_apply R q)
  exact congrArg (fun f => max (w 0xFF800000#32) (Finset.fold max (w 0xFF800000#32) f (Finset.univ : Finset (Fin 3)))) hf

/-- The shifted exponentials. -/
def shifted : FVec Ideal S2000000x3 .f32 := Host.exp (subf L (broadcastInDim S2000000x3 ![0, 1] bcast_S2000000x1_S2000000x3_0_1 (broadcastInDim S2000000x1 ![0] bcast_S2000000_S2000000x1_0 (rowMax L))))

theorem shifted_apply (k : Fin 3) : shifted L (ix2 R k) = Ideal.exp (L (ix2 R k) - rowMax L (ix1 R)) := by
  unfold shifted
  rw [hostExp_apply, subf_apply, spread_apply]

/-- The quotient by the rows' sums. -/
def normalised : FVec Ideal S2000000x3 .f32 :=
  Host.divf (shifted L) (broadcastInDim S2000000x3 ![0, 1] bcast_S2000000x1_S2000000x3_0_1 (broadcastInDim S2000000x1 ![0] bcast_S2000000_S2000000x1_0
    (Host.reduceAdd (shifted L) (constant S_ .f32 0x00000000#32) reducesTo_S2000000x3_S2000000_d1 h_S_)))

/-- At (R, k) the quotient is the folded share of row `R`. -/
theorem normalised_apply (k : Fin 3) : normalised L (ix2 R k) = shareFold (fun q => L (ix2 R q)) k := by
  unfold normalised
  rw [hostDivf_apply, spread_apply, hostReduceAdd_apply, Ideal.hostReduceAdd_single reducesTo_S2000000x3_S2000000_d1 rowsReduce, shifted_apply]
  have hs : (∑ q : Fin (S2000000x3.size 1), shifted L (rowsReduce.lift (ix1 R) q))
      = ∑ q : Fin 3, Ideal.exp (L (ix2 R q) - rowMax L (ix1 R)) :=
    Finset.sum_congr rfl fun q _ => by rw [lift_apply]; exact shifted_apply L R _
  rw [hs, rowMax_apply, constant_apply]
  rfl

variable (V0 : Valuation τ sig (Elt Ideal))

/-- The term the reference's run ends at is that quotient of the array of scores. -/
theorem result_eq :
    Host.divf (res_main_v153 V0) (broadcastInDim S2000000x3 ![0, 1] bcast_S2000000x1_S2000000x3_0_1 (broadcastInDim S2000000x1 ![0] bcast_S2000000_S2000000x1_0
      (Host.reduceAdd (res_main_v153 V0) (constant S_ .f32 0x00000000#32) reducesTo_S2000000x3_S2000000_d1 h_S_)))
      = normalised (res_main_v146 V0) := rfl

/-- So the reference's result is the whole-array function of its argument: at (R, k), the folded share of the three
    scores is the share written by hand, and a one-bit word read unsigned is the word widened and read signed. -/
theorem result_shares : normalised (res_main_v146 V0) = shares (arg V0) := by
  funext i
  obtain ⟨R, k, rfl⟩ : ∃ (R : Fin 2000000) (k : Fin 3), i = ix2 R k := ⟨i 0, i 1, eq_ix2 i⟩
  rw [normalised_apply, funext (scores_apply V0 R), shareFold_eq_share, ← indSigned_eq_indUnsigned]
  rfl

end Cert.ReferenceIdeal.ArrayValue

end
-- ==== Proof.lean ====
/-
  The kernel against its reference: a table of threshold rules on ten of a sample's fourteen numbers, weighted and added
  into two scores, a constant third score, and the softmax of the three — for two million samples.

  The kernel works tile by tile: 125000 samples at a time, transposed so that a feature is a row of lanes, every rule
  lane by lane, the three shares stacked and transposed back. The reference works column by column on the whole array
  and takes the softmax along the rows of a 2000000 by 3 array of scores. At the ideal values both end with the result
  array equal to ONE function of the argument array (`Cert.RuleSoftmax.shares`): entry (R, k) is share `k` of the scores of
  row R. The two programs apply the same operations to the same entries in the same order up to three points, none of
  which needs an entry to be finite: a one-bit word is read as 0 or 1 either way; the maximum of three numbers is the
  fold of `max` from -∞; and a sum started from 0 is the sum. So the precondition is never opened.

  The frames of the two kernel programs and the kernel's run tile by tile are the generated modules'; the reference's
  run is the generated one read back. The ideal pass rewrote nothing, so there is nothing to preserve.
-/
import proofs.«114063_j45741401703067_2_alg».proof.Defs
import proofs.«114063_j45741401703067_2_alg».proof.Proof.Gen.Kernel
import proofs.«114063_j45741401703067_2_alg».proof.Proof.Gen.Kernel.Skeleton
import proofs.«114063_j45741401703067_2_alg».proof.Proof.Gen.Kernel.Launch
import proofs.«114063_j45741401703067_2_alg».proof.Proof.Gen.Kernel.Points
import proofs.«114063_j45741401703067_2_alg».proof.Proof.Gen.Kernel.Frame
import proofs.«114063_j45741401703067_2_alg».proof.Proof.Gen.KernelIdeal
import proofs.«114063_j45741401703067_2_alg».proof.Proof.Gen.KernelIdeal.Skeleton
import proofs.«114063_j45741401703067_2_alg».proof.Proof.Gen.KernelIdeal.Launch
import proofs.«114063_j45741401703067_2_alg».proof.Proof.Gen.KernelIdeal.Points
import proofs.«114063_j45741401703067_2_alg».proof.Proof.Gen.KernelIdeal.Frame
import proofs.«114063_j45741401703067_2_alg».proof.Proof.Gen.KernelIdeal.Value
import proofs.«114063_j45741401703067_2_alg».proof.Proof.Gen.ReferenceIdeal
import proofs.«114063_j45741401703067_2_alg».proof.Proof.Gen.ReferenceIdeal.Run
import proofs.«114063_j45741401703067_2_alg».proof.Proof.Gen.Pre_finite_inputs
import proofs.«114063_j45741401703067_2_alg».proof.Proof.KernelArray
import proofs.«114063_j45741401703067_2_alg».proof.Proof.RefValue
import Idealize.ShloMosaic.Adequacy
import Idealize.ShloMosaic.Init

noncomputable section

namespace Cert.Proof

open Idealize.ShloMosaic Idealize.ShloMosaic.TcCoe Idealize.SL.Sem

/-- Both idealized programs end with the result array at `shares` of the argument array; the arguments agree, so the
    results do. -/
theorem algebraic : Cert.algebraic_KernelIdeal_ReferenceIdeal := by
  intro m ρ m' ρ' _ hagree
  refine ⟨fun c => Cert.RuleSoftmax.shares (m ((c.tc : Thread Cert.KernelIdeal.nD Cert.KernelIdeal.τ).loc Cert.KernelIdeal.main_arg0)),
    Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.ArrayValue.result_eq, Cert.ReferenceIdeal.ArrayValue.result_shares]
  exact congrArg Cert.RuleSoftmax.shares (hagree c)

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  algebraic⟩

end Cert.Proof

end
